-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S512x4 : S_.BroadcastsInDim S512x4 (![] : Fin 0 → Fin S512x4.rank)
  reducesTo_S512x4_S_d0_1 : S512x4.ReducesTo [0, 1] S_
  bcast_S_S512 : S_.BroadcastsInDim S512 (![] : Fin 0 → Fin S512.rank)
  reducesTo_S512_S_d0 : S512.ReducesTo [0] S_
  bcast_S_S512x48 : S_.BroadcastsInDim S512x48 (![] : Fin 0 → Fin S512x48.rank)
  reducesTo_S512x48_S_d0_1 : S512x48.ReducesTo [0, 1] S_
  bcast_S_S16x512 : S_.BroadcastsInDim S16x512 (![] : Fin 0 → Fin S16x512.rank)
  reducesTo_S16x512_S_d0_1 : S16x512.ReducesTo [0, 1] S_
  bcast_S_S512x16 : S_.BroadcastsInDim S512x16 (![] : Fin 0 → Fin S512x16.rank)
  reducesTo_S512x16_S_d0_1 : S512x16.ReducesTo [0, 1] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S512x16 .f32) (main_arg8 : FVec F S512 .f32) (main_arg9 : FVec F S512x256 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  main_v48

def fn_part1 {F : FTy → Type} [FloatOps F] (main_arg4 : FVec F S512x48 .f32) (main_arg5 : FVec F S16x512 .f32) (main_arg6 : FVec F S512 .f32) (main_arg7 : FVec F S512x16 .f32) (main_arg8 : FVec F S512 .f32) (main_arg9 : FVec F S512x256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x48 .f32 := Host.absf main_arg4
  let main_cst_6 : FVec F S_ .f32 := constant S_ .f32 0x7F800000#32
  let main_v20 : FVec F S512x48 .f32 := broadcastInDim S512x48 ![] bcast_S_S512x48 main_cst_6
  let main_v21 : IVec S512x48 1 := cmpf .olt main_v19 main_v20
  let main_c_7 : IVec S_ 1 := constantI S_ 1 1#1
  let main_v22 : IVec S_ 1 := (fun x v => Host.reduce IntOp.andi x v reducesTo_S512x48_S_d0_1 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S8x256x128x128 .f32) (main_arg1 : FVec F S256x1024 .f32) (main_arg2 : FVec F S512x4 .f32) (main_arg3 : FVec F S512 .f32) (main_arg4 : FVec F S512x48 .f32) (main_arg5 : FVec F S16x512 .f32) (main_arg6 : FVec F S512 .f32) (main_arg7 : FVec F S512x16 .f32) (main_arg8 : FVec F S512 .f32) (main_arg9 : FVec F S512x256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S512x4 .f32 := Host.absf main_arg2
  let main_cst_2 : FVec F S_ .f32 := constant S_ .f32 0x7F800000#32
  let main_v10 : FVec F S512x4 .f32 := broadcastInDim S512x4 ![] bcast_S_S512x4 main_cst_2
  let main_v11 : IVec S512x4 1 := cmpf .olt main_v9 main_v10
  let main_c_3 : IVec S_ 1 := constantI S_ 1 1#1
  let main_v12 : IVec S_ 1 := (fun x v => Host.reduce IntOp.andi x v reducesTo_S512x4_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S8x256x16384 : Shape := ⟨3, ![8, 256, 16384]⟩
abbrev S1024x256 : Shape := ⟨2, ![1024, 256]⟩
abbrev S48x512 : Shape := ⟨2, ![48, 512]⟩
abbrev S256x512 : Shape := ⟨2, ![256, 512]⟩
abbrev S512x1 : Shape := ⟨2, ![512, 1]⟩
abbrev S1x256x2048 : Shape := ⟨3, ![1, 256, 2048]⟩
abbrev S256x2048 : Shape := ⟨2, ![256, 2048]⟩
abbrev S1024x2048 : Shape := ⟨2, ![1024, 2048]⟩
abbrev S512x2048 : Shape := ⟨2, ![512, 2048]⟩
abbrev S48x2048 : Shape := ⟨2, ![48, 2048]⟩
abbrev S16x2048 : Shape := ⟨2, ![16, 2048]⟩
abbrev S2048 : Shape := ⟨1, ![2048]⟩
abbrev S1x2048 : Shape := ⟨2, ![1, 2048]⟩

abbrev nBuf : Space → Nat
  | .hbm => 27
  | .vmem => 12
  | .smem => 0
  | _ => 0

abbrev bufTy : (tb : Table) → Fin (tcTables nBuf tb) → BufTy
  | .hbm, ⟨0, _⟩ => ⟨S8x256x128x128, .f32⟩
  | .hbm, ⟨1, _⟩ => ⟨S256x1024, .f32⟩
  | .hbm, ⟨2, _⟩ => ⟨S512x4, .f32⟩
  | .hbm, ⟨3, _⟩ => ⟨S512, .f32⟩
  | .hbm, ⟨4, _⟩ => ⟨S512x48, .f32⟩
  | .hbm, ⟨5, _⟩ => ⟨S16x512, .f32⟩
  | .hbm, ⟨6, _⟩ => ⟨S512, .f32⟩
  | .hbm, ⟨7, _⟩ => ⟨S512x16, .f32⟩
  | .hbm, ⟨8, _⟩ => ⟨S512, .f32⟩
  | .hbm, ⟨9, _⟩ => ⟨S512x256, .f32⟩
  | .hbm, ⟨10, _⟩ => ⟨S8x256x16384, .f32⟩
  | .hbm, ⟨11, _⟩ => ⟨S1024x256, .f32⟩
  | .hbm, ⟨12, _⟩ => ⟨S1024x256, .bf16⟩
  | .hbm, ⟨13, _⟩ => ⟨S48x512, .f32⟩
  | .hbm, ⟨14, _⟩ => ⟨S48x512, .bf16⟩
  | .hbm, ⟨15, _⟩ => ⟨S512x16, .f32⟩
  | .hbm, ⟨16, _⟩ => ⟨S512x16, .bf16⟩
  | .hbm, ⟨17, _⟩ => ⟨S256x512, .f32⟩
  | .hbm, ⟨18, _⟩ => ⟨S256x512, .bf16⟩
  | .hbm, ⟨19, _⟩ => ⟨S512x1, .f32⟩
  | .hbm, ⟨20, _⟩ => ⟨S512, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S8x256x16384, .f32⟩
  | .hbm, ⟨26, _⟩ => ⟨S8x256x128x128, .f32⟩
  | .local _ .vmem, ⟨0, _⟩ => ⟨S1x256x2048, .f32⟩
  | .local _ .vmem, ⟨1, _⟩ => ⟨S1x256x2048, .f32⟩
  | .local _ .vmem, ⟨2, _⟩ => ⟨S1024x256, .bf16⟩
  | .local _ .vmem, ⟨3, _⟩ => ⟨S512x1, .f32⟩
  | .local _ .vmem, ⟨4, _⟩ => ⟨S512x1, .f32⟩
  | .local _ .vmem, ⟨5, _⟩ => ⟨S48x512, .bf16⟩
  | .local _ .vmem, ⟨6, _⟩ => ⟨S512x16, .bf16⟩
  | .local _ .vmem, ⟨7, _⟩ => ⟨S512x1, .f32⟩
  | .local _ .vmem, ⟨8, _⟩ => ⟨S512x1, .f32⟩
  | .local _ .vmem, ⟨9, _⟩ => ⟨S256x512, .bf16⟩
  | .local _ .vmem, ⟨10, _⟩ => ⟨S1x256x2048, .f32⟩
  | .local _ .vmem, ⟨11, _⟩ => ⟨S1x256x2048, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S8x256x128x128_S8x256x16384 : S8x256x128x128.ShapeCasts S8x256x16384
  transposes_S256x1024_S1024x256_1_0 : S256x1024.Transposes [1, 0] S1024x256
  bitsLt_bf16_f32 : FTy.bits .bf16 < FTy.bits .f32
  transposes_S512x48_S48x512_1_0 : S512x48.Transposes [1, 0] S48x512
  transposes_S16x512_S512x16_1_0 : S16x512.Transposes [1, 0] S512x16
  transposes_S512x256_S256x512_1_0 : S512x256.Transposes [1, 0] S256x512
  slices_S512x4_S512x1_0_3 : S512x4.Slices ![0, 3] S512x1
  shapeCasts_S512x1_S512 : S512x1.ShapeCasts S512
  shapeCasts_S512_S512x1 : S512.ShapeCasts S512x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x2048_o0_0_S512x2048 : S1024x2048.Slices ![0, 0] S512x2048
  slices_S1024x2048_o512_0_S512x2048 : S1024x2048.Slices ![512, 0] S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S48x512_S48x512_0_0 : ∀ a, (![0, 0] : Fin 2 → Nat) a + S48x512.size a ≤ S48x512.size a
  h_S48x512 : 0 < S48x512.numel
  shapeCasts_S48x512_S48x512 : S48x512.ShapeCasts S48x512
  slices_S48x2048_o0_0_S16x2048 : S48x2048.Slices ![0, 0] S16x2048
  slices_S48x2048_o16_0_S16x2048 : S48x2048.Slices ![16, 0] S16x2048
  slices_S48x2048_o32_0_S16x2048 : S48x2048.Slices ![32, 0] S16x2048
  inb_S512x16_S512x16_0_0 : ∀ a, (![0, 0] : Fin 2 → Nat) a + S512x16.size a ≤ S512x16.size a
  h_S512x16 : 0 < S512x16.numel
  shapeCasts_S512x16_S512x16 : S512x16.ShapeCasts S512x16
  reduces_S16x2048_S2048 : S16x2048.Reduces [0] S2048
  shapeCasts_S2048_S1x2048 : S2048.ShapeCasts S1x2048
  broadcasts_S1x2048_S512x2048 : S1x2048.Broadcasts S512x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S256x2048_S1x256x2048 : S256x2048.ShapeCasts S1x256x2048
  shapeCasts_S8x256x16384_S8x256x128x128 : S8x256x16384.ShapeCasts S8x256x128x128
  dot_S1024x256_S256x2048_S1024x2048_1_0_0_1_n_n_wf : DotDims.WF S1024x256 S256x2048 S1024x2048 [1] [0] [0] [1] [] []
  dot_S48x512_S512x2048_S48x2048_1_0_0_1_n_n_wf : DotDims.WF S48x512 S512x2048 S48x2048 [1] [0] [0] [1] [] []
  dot_S512x16_S16x2048_S512x2048_1_0_0_1_n_n_wf : DotDims.WF S512x16 S16x2048 S512x2048 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x16384.size a
  hwx0_0 : ∀ i : grid0.Coords, EltTy.bits .f32 = 32 ∨ (Rect.block (s := S8x256x16384) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x512.size a ≤ S48x512.size a
  hwx0_4 : ∀ i : grid0.Coords, EltTy.bits .bf16 = 32 ∨ (Rect.block (s := S48x512) S48x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S512x16.size a
  hwx0_5 : ∀ i : grid0.Coords, EltTy.bits .bf16 = 32 ∨ (Rect.block (s := S512x16) S512x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .bf16 = 32 ∨ (Rect.block (s := S256x512) S256x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S8x256x16384.size a
  hwx0_9 : ∀ i : grid0.Coords, EltTy.bits .f32 = 32 ∨ (Rect.block (s := S8x256x16384) S1x256x2048.size (cc0_transform_9 i) (hinb0_9 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S48x512_S512x2048_S48x2048_1_0_0_1_n_n : DotDims S48x512 S512x2048 S48x2048 where
  lhsContracting := [1]
  rhsContracting := [0]
  lhsNonContracting := [0]
  rhsNonContracting := [1]
  lhsBatch := []
  rhsBatch := []
  wf := dot_S48x512_S512x2048_S48x2048_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S48x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S8x128x128x256 : Shape := ⟨4, ![8, 128, 128, 256]⟩
abbrev S131072x256 : Shape := ⟨2, ![131072, 256]⟩
abbrev S131072x1024 : Shape := ⟨2, ![131072, 1024]⟩
abbrev S131072x512 : Shape := ⟨2, ![131072, 512]⟩
abbrev S512x1 : Shape := ⟨2, ![512, 1]⟩
abbrev S1x512 : Shape := ⟨2, ![1, 512]⟩
abbrev S_ : Shape := ⟨0, ![]⟩
abbrev S131072x48 : Shape := ⟨2, ![131072, 48]⟩
abbrev S131072x16 : Shape := ⟨2, ![131072, 16]⟩
abbrev S131072 : Shape := ⟨1, ![131072]⟩
abbrev S131072x1 : Shape := ⟨2, ![131072, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S256x1024, .f32⟩
  | .hbm, ⟨2, _⟩ => ⟨S512x4, .f32⟩
  | .hbm, ⟨3, _⟩ => ⟨S512, .f32⟩
  | .hbm, ⟨4, _⟩ => ⟨S512x48, .f32⟩
  | .hbm, ⟨5, _⟩ => ⟨S16x512, .f32⟩
  | .hbm, ⟨6, _⟩ => ⟨S512, .f32⟩
  | .hbm, ⟨7, _⟩ => ⟨S512x16, .f32⟩
  | .hbm, ⟨8, _⟩ => ⟨S512, .f32⟩
  | .hbm, ⟨9, _⟩ => ⟨S512x256, .f32⟩
  | .hbm, ⟨10, _⟩ => ⟨S8x128x128x256, .f32⟩
  | .hbm, ⟨11, _⟩ => ⟨S131072x256, .f32⟩
  | .hbm, ⟨12, _⟩ => ⟨S131072x1024, .f32⟩
  | .hbm, ⟨13, _⟩ => ⟨S131072x512, .f32⟩
  | .hbm, ⟨14, _⟩ => ⟨S131072x512, .f32⟩
  | .hbm, ⟨15, _⟩ => ⟨S512x1, .f32⟩
  | .hbm, ⟨16, _⟩ => ⟨S512, .f32⟩
  | .hbm, ⟨17, _⟩ => ⟨S1x512, .f32⟩
  | .hbm, ⟨18, _⟩ => ⟨S131072x512, .f32⟩
  | .hbm, ⟨19, _⟩ => ⟨S131072x512, .f32⟩
  | .hbm, ⟨20, _⟩ => ⟨S1x512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S131072x512, .f32⟩
  | .hbm, ⟨32, _⟩ => ⟨S131072x48, .f32⟩
  | .hbm, ⟨33, _⟩ => ⟨S131072x16, .f32⟩
  | .hbm, ⟨34, _⟩ => ⟨S131072x16, .f32⟩
  | .hbm, ⟨35, _⟩ => ⟨S131072x16, .f32⟩
  | .hbm, ⟨36, _⟩ => ⟨S131072x512, .f32⟩
  | .hbm, ⟨37, _⟩ => ⟨S1x512, .f32⟩
  | .hbm, ⟨38, _⟩ => ⟨S131072x512, .f32⟩
  | .hbm, ⟨39, _⟩ => ⟨S131072x512, .f32⟩
  | .hbm, ⟨40, _⟩ => ⟨S_, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S131072x512, .i1⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S131072x512, .f32⟩
  | .hbm, ⟨51, _⟩ => ⟨S131072x512, .f32⟩
  | .hbm, ⟨52, _⟩ => ⟨S131072x512, .f32⟩
  | .hbm, ⟨53, _⟩ => ⟨S131072x512, .f32⟩
  | .hbm, ⟨54, _⟩ => ⟨S131072x16, .f32⟩
  | .hbm, ⟨55, _⟩ => ⟨S_, .f32⟩
  | .hbm, ⟨56, _⟩ => ⟨S131072, .f32⟩
  | .hbm, ⟨57, _⟩ => ⟨S131072x1, .f32⟩
  | .hbm, ⟨58, _⟩ => ⟨S131072x512, .f32⟩
  | .hbm, ⟨59, _⟩ => ⟨S131072x512, .f32⟩
  | .hbm, ⟨60, _⟩ => ⟨S131072x512, .f32⟩
  | .hbm, ⟨61, _⟩ => ⟨S1x512, .f32⟩
  | .hbm, ⟨62, _⟩ => ⟨S131072x512, .f32⟩
  | .hbm, ⟨63, _⟩ => ⟨S131072x512, .f32⟩
  | .hbm, ⟨64, _⟩ => ⟨S131072x512, .f32⟩
  | .hbm, ⟨65, _⟩ => ⟨S131072x512, .f32⟩
  | .hbm, ⟨66, _⟩ => ⟨S131072x512, .f32⟩
  | .hbm, ⟨67, _⟩ => ⟨S_, .f32⟩
  | .hbm, ⟨68, _⟩ => ⟨S131072x512, .f32⟩
  | .hbm, ⟨69, _⟩ => ⟨S131072x512, .f32⟩
  | .hbm, ⟨70, _⟩ => ⟨S_, .f32⟩
  | .hbm, ⟨71, _⟩ => ⟨S131072x512, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S131072x256, .f32⟩
  | .hbm, ⟨76, _⟩ => ⟨S131072x256, .f32⟩
  | .hbm, ⟨77, _⟩ => ⟨S_, .f32⟩
  | .hbm, ⟨78, _⟩ => ⟨S131072x256, .f32⟩
  | .hbm, ⟨79, _⟩ => ⟨S131072x256, .f32⟩
  | .hbm, ⟨80, _⟩ => ⟨S8x128x128x256, .f32⟩
  | .hbm, ⟨81, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_0 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  slices_S131072x1024_S131072x512_0_0 : S131072x1024.Slices ![0, 0] S131072x512
  slices_S131072x1024_S131072x512_0_512 : S131072x1024.Slices ![0, 512] S131072x512
  slices_S512x4_S512x1_0_3 : S512x4.Slices ![0, 3] S512x1
  shapeCasts_S512x1_S512 : S512x1.ShapeCasts S512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  slices_S131072x48_S131072x16_0_0 : S131072x48.Slices ![0, 0] S131072x16
  slices_S131072x48_S131072x16_0_16 : S131072x48.Slices ![0, 16] S131072x16
  slices_S131072x48_S131072x16_0_32 : S131072x48.Slices ![0, 32] S131072x16
  reducesTo_S131072x16_S131072_d1 : S131072x16.ReducesTo [1] S131072
  h_S_ : 0 < S_.numel
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x256 : S_.BroadcastsInDim S131072x256 (![] : Fin 0 → Fin S131072x256.rank)
  shapeCasts_S131072x256_S8x128x128x256 : S131072x256.ShapeCasts S8x128x128x256
  transposes_S8x128x128x256_S8x256x128x128_0_3_1_2 : S8x128x128x256.Transposes [0, 3, 1, 2] S8x256x128x128
  dot_S131072x256_S256x1024_S131072x1024_1_0_0_1_n_n_wf : DotDims.WF S131072x256 S256x1024 S131072x1024 [1] [0] [0] [1] [] []
  dot_S131072x512_S512x48_S131072x48_1_0_0_1_n_n_wf : DotDims.WF S131072x512 S512x48 S131072x48 [1] [0] [0] [1] [] []
  dot_S131072x16_S16x512_S131072x512_1_0_0_1_n_n_wf : DotDims.WF S131072x16 S16x512 S131072x512 [1] [0] [0] [1] [] []
  dot_S131072x512_S512x256_S131072x256_1_0_0_1_n_n_wf : DotDims.WF S131072x512 S512x256 S131072x256 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x512_S512x48_S131072x48_1_0_0_1_n_n : DotDims S131072x512 S512x48 S131072x48 where
  lhsContracting := [1]
  rhsContracting := [0]
  lhsNonContracting := [0]
  rhsNonContracting := [1]
  lhsBatch := []
  rhsBatch := []
  wf := dot_S131072x512_S512x48_S131072x48_1_0_0_1_n_n_wf
def dot_S131072x16_S16x512_S131072x512_1_0_0_1_n_n : DotDims S131072x16 S16x512 S131072x512 where
  lhsContracting := [1]
  rhsContracting := [0]
  lhsNonContracting := [0]
  rhsNonContracting := [1]
  lhsBatch := []
  rhsBatch := []
  wf := dot_S131072x16_S16x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Token.lean ====
/-
  One token through a gated state-space block whose sequence has length one.

  A token is a vector `u` of 256 channels. With weights `Win` (256 × 1024), the last tap `cw` and bias `cb` of a
  depthwise convolution, `Wx` (512 × 48), `Wdt` (16 × 512) with bias `bdt`, the skip weights `Dv` and `Wout` (512 × 256):

    proj j  = Σ_k u k · Win k j                      (j < 1024: the first 512 feed the state path, the last 512 the gate)
    act d   = swish (proj d · cw d + cb d)            (swish a = a · 1/(1 + e^(−a)))
    mix r   = Σ_d act d · Wx d r                      (r < 48: 16 step coordinates, 16 of B, 16 of C)
    step d  = softplus (Σ_r mix r · Wdt r d + bdt d)  (softplus a = max a 0 + log(1 + e^(−|a|)))
    bc      = Σ_s mix (16 + s) · mix (32 + s)         (⟨B, C⟩: one scan step from the zero state)
    gated d = (step d · act d · bc + Dv d · act d) · swish (proj (512 + d))
    out c   = Σ_d gated d · Wout d c

  Everything is read on the extended reals with the exact operations, so sums may be taken in any order and
  a product's factors in either order; no law that fails at an infinity is used anywhere below.
-/
import Idealize.ShloMosaic.PureOps.Ideal
import Idealize.ShloMosaic.PureOps.Ideal.Laws
import Idealize.ShloMosaic.Lib.IdealHost
import Idealize.ShloMosaic.Lib.ValueIdx

noncomputable section

namespace Cert.Token

open Idealize.ShloMosaic Idealize.ShloMosaic.ValueIdx

/-- `a · σ(a)`, `σ` the logistic function `1 / (1 + e^(−a))`. -/
def swish (a : EReal) : EReal := a * Ideal.logistic a

/-- `log (1 + e^a)` in its overflow-free form `max a 0 + log (1 + e^(−|a|))`, `|a| = max a (−a)`. -/
def softplus (a : EReal) : EReal := max a 0 + Ideal.log1p (Ideal.exp (-(max a (-a))))

/-- The block's weights, each entry named by its coordinates. -/
structure Params where
  Win : Fin 256 → Fin 1024 → EReal
  cw : Fin 512 → EReal
  cb : Fin 512 → EReal
  Wx : Fin 512 → Fin 48 → EReal
  Wdt : Fin 16 → Fin 512 → EReal
  bdt : Fin 512 → EReal
  Dv : Fin 512 → EReal
  Wout : Fin 512 → Fin 256 → EReal

/-- Column `d` of the state path and of the gate inside the 1024 projected columns. -/
def lo (d : Fin 512) : Fin 1024 := ⟨d.val, by have := d.isLt; omega⟩
def hi (d : Fin 512) : Fin 1024 := ⟨512 + d.val, by have := d.isLt; omega⟩
/-- The three groups of sixteen inside the 48 mixed coordinates. -/
def g0 (r : Fin 16) : Fin 48 := ⟨r.val, by have := r.isLt; omega⟩
def g1 (r : Fin 16) : Fin 48 := ⟨16 + r.val, by have := r.isLt; omega⟩
def g2 (r : Fin 16) : Fin 48 := ⟨32 + r.val, by have := r.isLt; omega⟩

namespace Params

variable (P : Params) (u : Fin 256 → EReal)

def proj (j : Fin 1024) : EReal := ∑ k : Fin 256, u k * P.Win k j
def act (d : Fin 512) : EReal := swish (P.proj u (lo d) * P.cw d + P.cb d)
def mix (r : Fin 48) : EReal := ∑ d : Fin 512, P.act u d * P.Wx d r
def step (d : Fin 512) : EReal := softplus ((∑ r : Fin 16, P.mix u (g0 r) * P.Wdt r d) + P.bdt d)
def bc : EReal := ∑ s : Fin 16, P.mix u (g1 s) * P.mix u (g2 s)
def gated (d : Fin 512) : EReal := (P.step u d * P.act u d * P.bc u + P.Dv d * P.act u d) * swish (P.proj u (hi d))
def out (c : Fin 256) : EReal := ∑ d : Fin 512, P.gated u d * P.Wout d c

end Params

/-- The weights read off the argument arrays. -/
def params (a1 : (⟨2, ![256, 1024]⟩ : Shape).Idx → EReal) (a2 : (⟨2, ![512, 4]⟩ : Shape).Idx → EReal)
    (a3 : (⟨1, ![512]⟩ : Shape).Idx → EReal) (a4 : (⟨2, ![512, 48]⟩ : Shape).Idx → EReal)
    (a5 : (⟨2, ![16, 512]⟩ : Shape).Idx → EReal) (a6 a8 : (⟨1, ![512]⟩ : Shape).Idx → EReal)
    (a9 : (⟨2, ![512, 256]⟩ : Shape).Idx → EReal) : Params where
  Win k j := a1 (ix2 k j)
  cw d := a2 (ix2 d (3 : Fin 4))
  cb d := a3 (ix1 d)
  Wx d r := a4 (ix2 d r)
  Wdt r d := a5 (ix2 r d)
  bdt d := a6 (ix1 d)
  Dv d := a8 (ix1 d)
  Wout d c := a9 (ix2 d c)

/-- The token at batch `b`, row `h`, column `w` of a channels-second image: its 256 channel values. -/
def pixel (a0 : (⟨4, ![8, 256, 128, 128]⟩ : Shape).Idx → EReal) (b : Fin 8) (h w : Fin 128) : Fin 256 → EReal :=
  fun k => a0 (ix4 b k h w)

/-- THE RESULT: entry (b, c, h, w) is output channel `c` of the token at (b, h, w). -/
def G (a0 : (⟨4, ![8, 256, 128, 128]⟩ : Shape).Idx → EReal) (P : Params) : (⟨4, ![8, 256, 128, 128]⟩ : Shape).Idx → EReal :=
  fun i => P.out (pixel a0 (i 0) (i 2) (i 3)) (i 1)

/-! ## The two spellings of the scalar functions -/

/-- The logistic function written out with a constant `one` that denotes 1. -/
theorem swish_of_quotient (a one : EReal) (h1 : one = 1) : a * Ideal.div one (one + Ideal.exp (-a)) = swish a := by
  subst h1; rfl

/-- jax's `logaddexp a 0`: where `a − 0 ≠ a − 0` (never, on the extended reals) it answers `a + 0`, elsewhere
    `max a 0 + log1p (e^(−|a − 0|))`. With `z` denoting 0 this is `softplus a`, for either not-equal predicate. -/
theorem softplus_of_select (a z nabs : EReal) (hz : z = 0) (c : BitVec 1) (hc : c = Ideal.cmp .une (a - z) (a - z))
    (hn : nabs = -(max (a - z) (-(a - z)))) :
    Scalar.select c (a + z) (max a z + Ideal.log1p (Ideal.exp nabs)) = softplus a := by
  subst hz hc hn
  have h0 : Ideal.cmp .une (a - 0) (a - 0) = 0#1 := by simp [Ideal.cmp]
  rw [h0, select_zero, sub_zero]
  rfl

theorem cmp_one_eq_une (x y : EReal) : Ideal.cmp .one x y = Ideal.cmp .une x y := rfl

/-- The gated scan output as a kernel spells it: the same selection with the ordered not-equal predicate, `−|·|`
    written `0 − |·|`, and the logistic function as one operation. -/
theorem gated_of_body (L A B Dd g z z' : EReal) (hz : z = 0) (hz' : z' = 0) :
    (Scalar.select (Ideal.cmp .one (L - z) (L - z)) (L + z) (max L z + Ideal.log1p (Ideal.exp (z' - max (L - z) (-(L - z))))) * A * B
        + Dd * A) * (g * Ideal.logistic g)
      = (softplus L * A * B + Dd * A) * swish g := by
  subst hz hz'
  rw [cmp_one_eq_une, softplus_of_select L 0 (0 - max (L - 0) (-(L - 0))) rfl _ rfl (zero_sub _)]
  rfl

/-- The bit pattern of the float one half. -/
theorem ofBits_half : Ideal.ofBits .f32 0x3F000000#32 = ((1 / 2 : ℝ) : EReal) := by
  simp [Ideal.ofBits, Ideal.ieee, -EReal.coe_mul]; norm_num

/-- Doubling and halving is the identity on every extended real, the infinities included. -/
theorem double_half (x : EReal) : (x + x) * Ideal.ofBits .f32 0x3F000000#32 = x := by
  rw [ofBits_half]
  induction x using EReal.rec with
  | bot => rw [EReal.bot_add]; exact EReal.bot_mul_coe_of_pos (by norm_num)
  | top => rw [EReal.top_add_top]; exact EReal.top_mul_coe_of_pos (by norm_num)
  | coe r => rw [← EReal.coe_add, ← EReal.coe_mul]; congr 1; ring

end Cert.Token

end
-- ==== Proof.RefToken.lean ====
/-
  The reference, read at one token.

  The reference moves the channel axis last, flattens the 8 × 128 × 128 positions into 131072 rows, and runs the
  block on the [131072, 256] matrix with plain matrix products. Row `n` of every intermediate depends on row `n` of the
  input only, so each stage at (n, ·) is the corresponding function of `Cert.Token` at the token `row n`. At the
  end it adds the result to itself and halves it, which changes nothing, and moves the channel axis back.
-/
import proofs.«120211_j14388140441602_2_alg».proof.Proof.Gen.ReferenceIdeal.Read
import proofs.«120211_j14388140441602_2_alg».proof.Proof.Token

noncomputable section

namespace Cert.RefToken

open Cert.ReferenceIdeal Cert.ReferenceIdeal.Read Cert.Token
open Idealize.ShloMosaic Idealize.ShloMosaic.ValueIdx

variable (x0 : (⟨S8x256x128x128, .f32⟩ : BufTy).Contents (Elt Ideal)) (x1 : (⟨S256x1024, .f32⟩ : BufTy).Contents (Elt Ideal))
  (x2 : (⟨S512x4, .f32⟩ : BufTy).Contents (Elt Ideal)) (x3 : (⟨S512, .f32⟩ : BufTy).Contents (Elt Ideal))
  (x4 : (⟨S512x48, .f32⟩ : BufTy).Contents (Elt Ideal)) (x5 : (⟨S16x512, .f32⟩ : BufTy).Contents (Elt Ideal))
  (x6 x8 : (⟨S512, .f32⟩ : BufTy).Contents (Elt Ideal)) (x9 : (⟨S512x256, .f32⟩ : BufTy).Contents (Elt Ideal))

/-- Two indices of a rank-two shape are equal when their coordinates are (up to a division by one). -/
local macro "ix2_eq" : term => `(funext fun a => Fin.ext (by
    match a with
    | ⟨0, _⟩ => first | rfl | exact Nat.div_one _
    | ⟨1, _⟩ => first | rfl | exact Nat.div_one _))
local macro "ix1_eq" : term => `(funext fun a => Fin.ext (by
    match a with
    | ⟨0, _⟩ => first | rfl | exact Nat.div_one _))

/-- Row `n` of the flattened channels-last input: the token's 256 channels. -/
def row (n : Fin 131072) : Fin 256 → EReal := fun k => val_main_v1 (F := Ideal) x0 (ix2 n k)

/-- The input projection at (n, j). -/
theorem proj_eq (n : Fin 131072) (j : Fin 1024) :
    val_main_v2 (F := Ideal) x0 x1 (ix2 n j) = (params x1 x2 x3 x4 x5 x6 x8 x9).proj (row x0 n) j := by
  rw [val_main_v2_apply]
  refine Finset.sum_congr rfl fun k _ => ?_
  have el : lidx_main_v2 (ix2 n j) k = ix2 n k := ix2_eq
  have er : ridx_main_v2 (ix2 n j) k = ix2 k j := ix2_eq
  rw [el, er]; rfl

/-- The convolution's last tap and bias applied to the state path's column `d`. -/
theorem pre_eq (n : Fin 131072) (d : Fin 512) :
    val_main_v12 (F := Ideal) x0 x1 x2 x3 (ix2 n d)
      = (params x1 x2 x3 x4 x5 x6 x8 x9).proj (row x0 n) (lo d) * (params x1 x2 x3 x4 x5 x6 x8 x9).cw d
        + (params x1 x2 x3 x4 x5 x6 x8 x9).cb d := by
  rw [val_main_v12_apply, val_main_v9_apply, val_main_v3_apply, val_main_v8_apply, val_main_v7_apply, val_main_v6_apply,
    val_main_v5_apply, val_main_v11_apply, val_main_v10_apply]
  have e3 : idx_main_v3 (ix2 n d) = ix2 n (lo d) := ix2_eq
  have e2 : idx_main_v5 (idx_main_v6 (idx_main_v7 (idx_main_v8 (ix2 n d)))) = ix2 d (3 : Fin 4) := ix2_eq
  have e10 : idx_main_v10 (idx_main_v11 (ix2 n d)) = ix1 d := ix1_eq
  rw [e3, e2, e10, proj_eq x0 x1 x2 x3 x4 x5 x6 x8 x9]; rfl

/-- The activated state path at (n, d). -/
theorem act_eq (n : Fin 131072) (d : Fin 512) :
    val_main_v13 (F := Ideal) x0 x1 x2 x3 (ix2 n d) = (params x1 x2 x3 x4 x5 x6 x8 x9).act (row x0 n) d := by
  rw [val_main_v13_apply, val_main_call0_v5_apply, val_main_call0_v4_apply, val_main_call0_cst_0_apply,
    val_main_call0_v3_apply, val_main_call0_v2_apply, val_main_call0_cst_apply, val_main_call0_v1_apply,
    val_main_call0_v0_apply, pre_eq x0 x1 x2 x3 x4 x5 x6 x8 x9]
  exact swish_of_quotient _ _ Ideal.ofBits_one_f32

/-- The 48 mixed coordinates at (n, r). -/
theorem mix_eq (n : Fin 131072) (r : Fin 48) :
    val_main_v14 (F := Ideal) x0 x1 x2 x3 x4 (ix2 n r) = (params x1 x2 x3 x4 x5 x6 x8 x9).mix (row x0 n) r := by
  rw [val_main_v14_apply]
  refine Finset.sum_congr rfl fun k _ => ?_
  have el : lidx_main_v14 (ix2 n r) k = ix2 n k := ix2_eq
  have er : ridx_main_v14 (ix2 n r) k = ix2 k r := ix2_eq
  rw [el, er, act_eq x0 x1 x2 x3 x4 x5 x6 x8 x9]; rfl

/-- The step size before its softplus at (n, d). -/
theorem lin_eq (n : Fin 131072) (d : Fin 512) :
    val_main_v21 (F := Ideal) x0 x1 x2 x3 x4 x5 x6 (ix2 n d)
      = (∑ r : Fin 16, (params x1 x2 x3 x4 x5 x6 x8 x9).mix (row x0 n) (g0 r) * (params x1 x2 x3 x4 x5 x6 x8 x9).Wdt r d)
        + (params x1 x2 x3 x4 x5 x6 x8 x9).bdt d := by
  rw [val_main_v21_apply, val_main_v18_apply, val_main_v20_apply, val_main_v19_apply]
  have hs : ∀ k : Fin 16, val_main_v15 (F := Ideal) x0 x1 x2 x3 x4 (lidx_main_v18 (ix2 n d) k) * x5 (ridx_main_v18 (ix2 n d) k)
      = (params x1 x2 x3 x4 x5 x6 x8 x9).mix (row x0 n) (g0 k) * (params x1 x2 x3 x4 x5 x6 x8 x9).Wdt k d := fun k => by
    rw [val_main_v15_apply]
    have e : idx_main_v15 (lidx_main_v18 (ix2 n d) k) = ix2 n (g0 k) := ix2_eq
    have er : ridx_main_v18 (ix2 n d) k = ix2 k d := ix2_eq
    rw [e, er, mix_eq x0 x1 x2 x3 x4 x5 x6 x8 x9]; rfl
  rw [Finset.sum_congr rfl fun k _ => hs k]
  have e6 : idx_main_v19 (idx_main_v20 (ix2 n d)) = ix1 d := ix1_eq
  rw [e6]; rfl

/-- The step size at (n, d). -/
theorem step_eq (n : Fin 131072) (d : Fin 512) :
    val_main_v22 (F := Ideal) x0 x1 x2 x3 x4 x5 x6 (ix2 n d) = (params x1 x2 x3 x4 x5 x6 x8 x9).step (row x0 n) d := by
  rw [val_main_v22_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply,
    lin_eq x0 x1 x2 x3 x4 x5 x6 x8 x9]
  exact softplus_of_select _ _ _ Ideal.ofBits_zero_f32 _ rfl rfl

/-- The inner product of the B and C coordinates of token `n`. -/
theorem bc_eq (n : Fin 131072) :
    val_main_v24 (F := Ideal) x0 x1 x2 x3 x4 (ix1 n) = (params x1 x2 x3 x4 x5 x6 x8 x9).bc (row x0 n) := by
  rw [val_main_v24_apply, val_main_cst_apply]
  show Ideal.ofBits .f32 0x00000000#32 + _ = _
  rw [Ideal.ofBits_zero_f32, zero_add]
  refine Finset.sum_congr rfl fun k _ => ?_
  rw [val_main_v23_apply, val_main_v16_apply, val_main_v17_apply]
  have e16 : idx_main_v16 (idx_main_v24 (ix1 n) k) = ix2 n (g1 k) := ix2_eq
  have e17 : idx_main_v17 (idx_main_v24 (ix1 n) k) = ix2 n (g2 k) := ix2_eq
  rw [e16, e17, mix_eq x0 x1 x2 x3 x4 x5 x6 x8 x9, mix_eq x0 x1 x2 x3 x4 x5 x6 x8 x9]; rfl

/-- The gate at (n, d). -/
theorem gate_eq (n : Fin 131072) (d : Fin 512) :
    val_main_v33 (F := Ideal) x0 x1 (ix2 n d) = swish ((params x1 x2 x3 x4 x5 x6 x8 x9).proj (row x0 n) (hi d)) := by
  rw [val_main_v33_apply, val_main_call2_v5_apply, val_main_call2_v4_apply, val_main_call2_cst_0_apply,
    val_main_call2_v3_apply, val_main_call2_v2_apply, val_main_call2_cst_apply, val_main_call2_v1_apply,
    val_main_call2_v0_apply, val_main_v4_apply]
  have e4 : idx_main_v4 (ix2 n d) = ix2 n (hi d) := ix2_eq
  rw [e4, proj_eq x0 x1 x2 x3 x4 x5 x6 x8 x9]
  exact swish_of_quotient _ _ Ideal.ofBits_one_f32

/-- The gated scan output at (n, d). -/
theorem gated_eq (n : Fin 131072) (d : Fin 512) :
    val_main_v34 (F := Ideal) x0 x1 x2 x3 x4 x5 x6 x8 (ix2 n d) = (params x1 x2 x3 x4 x5 x6 x8 x9).gated (row x0 n) d := by
  rw [val_main_v34_apply, val_main_v32_apply, val_main_v28_apply, val_main_v26_apply, val_main_v27_apply, val_main_v25_apply,
    val_main_v31_apply, val_main_v30_apply, val_main_v29_apply]
  have e25 : idx_main_v25 (idx_main_v27 (ix2 n d)) = ix1 n := ix1_eq
  have e29 : idx_main_v29 (idx_main_v30 (ix2 n d)) = ix1 d := ix1_eq
  rw [e25, e29, step_eq x0 x1 x2 x3 x4 x5 x6 x8 x9, act_eq x0 x1 x2 x3 x4 x5 x6 x8 x9, bc_eq x0 x1 x2 x3 x4 x5 x6 x8 x9,
    gate_eq x0 x1 x2 x3 x4 x5 x6 x8 x9]
  rfl

/-- The output projection at (n, c). -/
theorem out_eq (n : Fin 131072) (c : Fin 256) :
    val_main_v35 (F := Ideal) x0 x1 x2 x3 x4 x5 x6 x8 x9 (ix2 n c) = (params x1 x2 x3 x4 x5 x6 x8 x9).out (row x0 n) c := by
  rw [val_main_v35_apply]
  refine Finset.sum_congr rfl fun k _ => ?_
  have el : lidx_main_v35 (ix2 n c) k = ix2 n k := ix2_eq
  have er : ridx_main_v35 (ix2 n c) k = ix2 k c := ix2_eq
  rw [el, er, gated_eq x0 x1 x2 x3 x4 x5 x6 x8 x9]; rfl

/-! ## From rows back to the image -/

/-- The row that holds the token at batch `b`, image row `h`, image column `w`. -/
def tokenAt (b : Fin 8) (h w : Fin 128) : Fin 131072 :=
  ⟨(b.val * 128 + h.val) * 128 + w.val, by have := b.isLt; have := h.isLt; have := w.isLt; omega⟩

/-- That row is the token's channel vector. -/
theorem row_eq (b : Fin 8) (h w : Fin 128) : row x0 (tokenAt b h w) = pixel x0 b h w := by
  funext k
  unfold row pixel
  rw [val_main_v1_apply, val_main_v0_apply]
  refine congrArg x0 (funext fun a => Fin.ext ?_)
  have hb := b.isLt; have hh := h.isLt; have hw := w.isLt; have hk := k.isLt
  match a with
  | ⟨0, _⟩ => show (((b.val * 128 + h.val) * 128 + w.val) * 256 + k.val) / 4194304 = b.val; omega
  | ⟨1, _⟩ => show (((b.val * 128 + h.val) * 128 + w.val) * 256 + k.val) % 256 = k.val; omega
  | ⟨2, _⟩ => show (((b.val * 128 + h.val) * 128 + w.val) * 256 + k.val) / 32768 % 128 = h.val; omega
  | ⟨3, _⟩ => show (((b.val * 128 + h.val) * 128 + w.val) * 256 + k.val) / 256 % 128 = w.val; omega

/-- THE REFERENCE'S RESULT is `G` of its arguments. -/
theorem result_eq : val_main_v40 (F := Ideal) x0 x1 x2 x3 x4 x5 x6 x8 x9 = G x0 (params x1 x2 x3 x4 x5 x6 x8 x9) := by
  funext i
  obtain ⟨b, c, h, w, rfl⟩ : ∃ (b : Fin 8) (c : Fin 256) (h w : Fin 128), i = ix4 b c h w := ⟨i 0, i 1, i 2, i 3, eq_ix4 i⟩
  rw [val_main_v40_apply, val_main_v39_apply, val_main_v38_apply, val_main_v36_apply, val_main_v37_apply, val_main_cst_0_apply]
  have ej : idx_main_v39 (idx_main_v40 (ix4 b c h w)) = ix2 (tokenAt b h w) c := by
    refine funext fun a => Fin.ext ?_
    have hb := b.isLt; have hc := c.isLt; have hh := h.isLt; have hw := w.isLt
    match a with
    | ⟨0, _⟩ => show (((b.val * 128 + h.val) * 128 + w.val) * 256 + c.val) / 256 = (b.val * 128 + h.val) * 128 + w.val; omega
    | ⟨1, _⟩ => show (((b.val * 128 + h.val) * 128 + w.val) * 256 + c.val) % 256 = c.val; omega
  rw [ej, out_eq x0 x1 x2 x3 x4 x5 x6 x8 x9, row_eq]
  exact double_half _

end Cert.RefToken

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KerToken.lean ====
/-
  The kernel body, read at one token.

  The body works on one image and 2048 consecutive positions at a time, channels down the rows and positions along
  the columns: every matrix product is (transposed weights) × (activations), and column `l` of every intermediate
  depends on column `l` of the input block only. So each stage at (·, l) is the corresponding function of
  `Cert.Token` at the token `col l`, with the weights read off the transposed blocks. A product `W · a` here meets
  `a · W` there by commutativity, which holds on all extended reals.
-/
import proofs.«120211_j14388140441602_2_alg».proof.Proof.Gen.KernelIdeal.Skeleton
import proofs.«120211_j14388140441602_2_alg».proof.Proof.Token
import proofs.«120211_j14388140441602_2_alg».proof.Proof.LibPlainMatmul
import Idealize.ShloMosaic.Lib.Pipeline.Value
import Idealize.ShloMosaic.Lib.ValueIdx
import Idealize.ShloMosaic.PureOps.Ideal.Laws

noncomputable section

namespace Cert.KerToken

open Cert.KernelIdeal Cert.KernelIdeal.Gen Cert.Token
open Idealize.ShloMosaic Idealize.ShloMosaic.ValueIdx

/-! ## Layout operations of the body at an entry -/

/-- Rows `off …` of a matrix, all columns. -/
theorem rows_apply {R R' C : Nat} (off : Nat) (x : (⟨2, ![R, C]⟩ : Shape).Idx → EReal)
    (h : (⟨2, ![R, C]⟩ : Shape).Slices ![off, 0] ⟨2, ![R', C]⟩) (r : Fin R') (c : Fin C) (r' : Fin R) (hr : r'.val = off + r.val) :
    extractStridedSlice ⟨2, ![R', C]⟩ ![off, 0] x h (ix2 r c) = x (ix2 r' c) :=
  extractStridedSlice_apply _ x h (ix2 r c) (ix2 r' c) (fun a => by
    match a with
    | ⟨0, _⟩ => exact hr
    | ⟨1, _⟩ => exact (Nat.zero_add _).symm)

/-- A column vector laid along every column of a matrix. -/
theorem column_apply {R C : Nat} (hC : C ≠ 1) (x : (⟨2, ![R, 1]⟩ : Shape).Idx → EReal)
    (h : (⟨2, ![R, 1]⟩ : Shape).Broadcasts ⟨2, ![R, C]⟩) (r : Fin R) (c : Fin C) :
    broadcastTo ⟨2, ![R, C]⟩ x h (ix2 r c) = x (ix2 r (0 : Fin 1)) :=
  broadcastTo_apply x h (ix2 r c) (ix2 r (0 : Fin 1)) (fun a => by
    match a with
    | ⟨0, _⟩ =>
      by_cases h1 : R = 1
      · subst h1; have := r.isLt; show r.val = if (1 : Nat) = 1 then 0 else r.val; rw [if_pos rfl]; omega
      · show r.val = if R = 1 then 0 else r.val; rw [if_neg h1]
    | ⟨1, _⟩ => show (0 : Nat) = if (1 : Nat) = 1 then 0 else c.val; rw [if_pos rfl])

/-- The leading unit axis of a block dropped. -/
theorem dropLead_apply (x : Vec Ideal S1x256x2048 .f32) (h : S1x256x2048.ShapeCasts S256x2048) (k : Fin 256) (l : Fin 2048) :
    shapeCast S256x2048 x h (ix2 k l) = x (ix3 (0 : Fin 1) k l) :=
  shapeCast_apply x h (ix2 k l) (ix3 (0 : Fin 1) k l) (by
    rewrite [Shape.rowMajor_val_three, Shape.rowMajor_val_two]
    show (0 * 256 + k.val) * 2048 + l.val = k.val * 2048 + l.val; omega)

/-! ## The stages -/

variable (x0 : Vec Ideal S1x256x2048 .f32) (x1 : Vec Ideal S1024x256 .bf16) (x2 x3 : Vec Ideal S512x1 .f32)
  (x4 : Vec Ideal S48x512 .bf16) (x5 : Vec Ideal S512x16 .bf16) (x6 x7 : Vec Ideal S512x1 .f32) (x8 : Vec Ideal S256x512 .bf16)

/-- The weights as the body finds them: the matrices transposed, the vectors as columns. -/
def blockParams : Params where
  Win k j := x1 (ix2 j k)
  cw d := x2 (ix2 d (0 : Fin 1))
  cb d := x3 (ix2 d (0 : Fin 1))
  Wx d r := x4 (ix2 r d)
  Wdt r d := x5 (ix2 d r)
  bdt d := x6 (ix2 d (0 : Fin 1))
  Dv d := x7 (ix2 d (0 : Fin 1))
  Wout d c := x8 (ix2 c d)

/-- Column `l` of the input block: one token's 256 channels. -/
def col (l : Fin 2048) : Fin 256 → EReal := fun k => x0 (ix3 (0 : Fin 1) k l)

/-- The input projection at (j, l). -/
theorem proj_eq (j : Fin 1024) (l : Fin 2048) :
    k0_pay2 x0 x1 (ix2 j l) = (blockParams x1 x2 x3 x4 x5 x6 x7 x8).proj (col x0 l) j := by
  unfold k0_pay2
  refine (PlainMatmul.matmul_zero_apply 1024 256 2048 none _ _ j l).trans ?_
  refine Finset.sum_congr rfl fun k _ => ?_
  rw [shapeCast_self]
  show x1 (ix2 j k) * shapeCast S256x2048 x0 shapeCasts_S1x256x2048_S256x2048 (ix2 k l) = _
  rw [dropLead_apply]
  exact mul_comm _ _

/-- The gate's input at (d, l): column 512 + d of the projection. -/
theorem gateIn_eq (d : Fin 512) (l : Fin 2048) :
    k0_pay3 x0 x1 (ix2 d l) = (blockParams x1 x2 x3 x4 x5 x6 x7 x8).proj (col x0 l) (hi d) := by
  unfold k0_pay3
  exact (rows_apply 512 _ _ d l (hi d) rfl).trans (proj_eq x0 x1 x2 x3 x4 x5 x6 x7 x8 (hi d) l)

/-- The activated state path at (d, l). -/
theorem act_eq (d : Fin 512) (l : Fin 2048) :
    k0_pay4 x0 x1 x2 x3 (ix2 d l) = (blockParams x1 x2 x3 x4 x5 x6 x7 x8).act (col x0 l) d := by
  have h6 : extractStridedSlice S512x2048 ![0, 0] (k0_pay2 x0 x1) slices_S1024x2048_o0_0_S512x2048 (ix2 d l)
      = (blockParams x1 x2 x3 x4 x5 x6 x7 x8).proj (col x0 l) (lo d) :=
    (rows_apply 0 _ _ d l (lo d) (Nat.zero_add _).symm).trans (proj_eq x0 x1 x2 x3 x4 x5 x6 x7 x8 (lo d) l)
  have h2 : broadcastTo S512x2048 (shapeCast S512x1 x2 shapeCasts_S512x1_S512x1) broadcasts_S512x1_S512x2048 (ix2 d l)
      = x2 (ix2 d (0 : Fin 1)) := by rw [shapeCast_self]; exact column_apply (by decide) x2 _ d l
  have h3 : broadcastTo S512x2048 (shapeCast S512x1 x3 shapeCasts_S512x1_S512x1) broadcasts_S512x1_S512x2048 (ix2 d l)
      = x3 (ix2 d (0 : Fin 1)) := by rw [shapeCast_self]; exact column_apply (by decide) x3 _ d l
  unfold k0_pay4
  show FloatOps.mulf (FloatOps.addf (FloatOps.mulf (extractStridedSlice S512x2048 ![0, 0] (k0_pay2 x0 x1) slices_S1024x2048_o0_0_S512x2048 (ix2 d l)) (broadcastTo S512x2048 (shapeCast S512x1 x2 shapeCasts_S512x1_S512x1) broadcasts_S512x1_S512x2048 (ix2 d l))) (broadcastTo S512x2048 (shapeCast S512x1 x3 shapeCasts_S512x1_S512x1) broadcasts_S512x1_S512x2048 (ix2 d l)))
      (FloatOps.logistic (FloatOps.addf (FloatOps.mulf (extractStridedSlice S512x2048 ![0, 0] (k0_pay2 x0 x1) slices_S1024x2048_o0_0_S512x2048 (ix2 d l)) (broadcastTo S512x2048 (shapeCast S512x1 x2 shapeCasts_S512x1_S512x1) broadcasts_S512x1_S512x2048 (ix2 d l))) (broadcastTo S512x2048 (shapeCast S512x1 x3 shapeCasts_S512x1_S512x1) broadcasts_S512x1_S512x2048 (ix2 d l)))) = _
  rw [h6, h2, h3]
  rfl

/-- The 48 mixed coordinates at (r, l). -/
theorem mix_eq (r : Fin 48) (l : Fin 2048) :
    k0_pay5 x0 x1 x2 x3 x4 (ix2 r l) = (blockParams x1 x2 x3 x4 x5 x6 x7 x8).mix (col x0 l) r := by
  unfold k0_pay5
  refine (PlainMatmul.matmul_zero_apply 48 512 2048 none _ _ r l).trans ?_
  refine Finset.sum_congr rfl fun k _ => ?_
  rw [shapeCast_self]
  show x4 (ix2 r k) * k0_pay4 x0 x1 x2 x3 (ix2 k l) = _
  rw [act_eq x0 x1 x2 x3 x4 x5 x6 x7 x8]
  exact mul_comm _ _

/-- Its B coordinates: rows 16 … 31. -/
theorem bRows_eq (s : Fin 16) (l : Fin 2048) :
    k0_pay6 x0 x1 x2 x3 x4 (ix2 s l) = (blockParams x1 x2 x3 x4 x5 x6 x7 x8).mix (col x0 l) (g1 s) := by
  unfold k0_pay6
  exact (rows_apply 16 _ _ s l (g1 s) rfl).trans (mix_eq x0 x1 x2 x3 x4 x5 x6 x7 x8 (g1 s) l)

/-- Its C coordinates: rows 32 … 47. -/
theorem cRows_eq (s : Fin 16) (l : Fin 2048) :
    k0_pay7 x0 x1 x2 x3 x4 (ix2 s l) = (blockParams x1 x2 x3 x4 x5 x6 x7 x8).mix (col x0 l) (g2 s) := by
  unfold k0_pay7
  exact (rows_apply 32 _ _ s l (g2 s) rfl).trans (mix_eq x0 x1 x2 x3 x4 x5 x6 x7 x8 (g2 s) l)

/-- The step size before its softplus at (d, l). -/
theorem lin_eq (d : Fin 512) (l : Fin 2048) :
    k0_pay8 x0 x1 x2 x3 x4 x5 x6 (ix2 d l)
      = (∑ r : Fin 16, (blockParams x1 x2 x3 x4 x5 x6 x7 x8).mix (col x0 l) (g0 r) * (blockParams x1 x2 x3 x4 x5 x6 x7 x8).Wdt r d)
        + (blockParams x1 x2 x3 x4 x5 x6 x7 x8).bdt d := by
  have hm : FloatOps.matmul (φ₁ := .bf16) (φ₂ := .bf16) (DotDims.plain 512 16 2048) none (shapeCast S512x16 x5 shapeCasts_S512x16_S512x16)
        (truncf .bf16 (extractStridedSlice S16x2048 ![0, 0] (k0_pay5 x0 x1 x2 x3 x4) slices_S48x2048_o0_0_S16x2048) bitsLt_bf16_f32)
        (constant S512x2048 .f32 0x00000000#32) (ix2 d l)
      = ∑ r : Fin 16, (blockParams x1 x2 x3 x4 x5 x6 x7 x8).mix (col x0 l) (g0 r) * (blockParams x1 x2 x3 x4 x5 x6 x7 x8).Wdt r d := by
    refine (PlainMatmul.matmul_zero_apply 512 16 2048 none _ _ d l).trans ?_
    refine Finset.sum_congr rfl fun k _ => ?_
    rw [shapeCast_self]
    show x5 (ix2 d k) * extractStridedSlice S16x2048 ![0, 0] (k0_pay5 x0 x1 x2 x3 x4) slices_S48x2048_o0_0_S16x2048 (ix2 k l) = _
    rw [rows_apply 0 _ _ k l (g0 k) (Nat.zero_add _).symm, mix_eq x0 x1 x2 x3 x4 x5 x6 x7 x8]
    exact mul_comm _ _
  have h6 : broadcastTo S512x2048 (shapeCast S512x1 x6 shapeCasts_S512x1_S512x1) broadcasts_S512x1_S512x2048 (ix2 d l)
      = x6 (ix2 d (0 : Fin 1)) := by rw [shapeCast_self]; exact column_apply (by decide) x6 _ d l
  unfold k0_pay8
  show FloatOps.addf (FloatOps.matmul (φ₁ := .bf16) (φ₂ := .bf16) (DotDims.plain 512 16 2048) none (shapeCast S512x16 x5 shapeCasts_S512x16_S512x16)
        (truncf .bf16 (extractStridedSlice S16x2048 ![0, 0] (k0_pay5 x0 x1 x2 x3 x4) slices_S48x2048_o0_0_S16x2048) bitsLt_bf16_f32)
        (constant S512x2048 .f32 0x00000000#32) (ix2 d l))
      (broadcastTo S512x2048 (shapeCast S512x1 x6 shapeCasts_S512x1_S512x1) broadcasts_S512x1_S512x2048 (ix2 d l)) = _
  rw [hm, h6]
  rfl

/-! ## The inner product of B and C, and the skip weights, as the body lays them out -/

/-- A sum down the 16 rows of a 16 × 2048 matrix. -/
theorem sumRows_apply (src : FVec Ideal S16x2048 .f32) (l : Fin 2048) :
    multiReduction .add [0] S2048 src 0x00000000#32 reduces_S16x2048_S2048 (.inl rfl) rfl (ix1 l) = ∑ k : Fin 16, src (ix2 k l) := by
  refine (Ideal.multiReduction_add_single src 0x00000000#32 reduces_S16x2048_S2048 (.inl rfl) rfl (ix1 l)).trans ?_
  exact Finset.sum_congr rfl fun k _ => congrArg src (funext fun a => Fin.ext (by
    match a with
    | ⟨0, _⟩ => rfl
    | ⟨1, _⟩ => rfl))

/-- A row vector laid along every row of a matrix. -/
theorem row_apply (x : FVec Ideal S1x2048 .f32) (d : Fin 512) (l : Fin 2048) :
    broadcastTo S512x2048 x broadcasts_S1x2048_S512x2048 (ix2 d l) = x (ix2 (0 : Fin 1) l) :=
  broadcastTo_apply x _ (ix2 d l) (ix2 (0 : Fin 1) l) (fun a => by
    match a with
    | ⟨0, _⟩ => rfl
    | ⟨1, _⟩ => rfl)

/-- A vector viewed as a one-row matrix. -/
theorem asRow_apply (x : FVec Ideal S2048 .f32) (l : Fin 2048) :
    shapeCast S1x2048 x shapeCasts_S2048_S1x2048 (ix2 (0 : Fin 1) l) = x (ix1 l) :=
  shapeCast_apply x _ (ix2 (0 : Fin 1) l) (ix1 l) (by
    rewrite [Shape.rowMajor_val_one, Shape.rowMajor_val_two]
    show l.val = 0 * 2048 + l.val; omega)

/-- ⟨B, C⟩ of each token, laid along every row. -/
def bcMat : FVec Ideal S512x2048 .f32 :=
  broadcastTo S512x2048 (shapeCast S1x2048 (multiReduction .add [0] S2048 (mulf (k0_pay6 x0 x1 x2 x3 x4) (k0_pay7 x0 x1 x2 x3 x4))
    0x00000000#32 reduces_S16x2048_S2048 (.inl rfl) rfl) shapeCasts_S2048_S1x2048) broadcasts_S1x2048_S512x2048

theorem bcMat_eq (d : Fin 512) (l : Fin 2048) :
    bcMat x0 x1 x2 x3 x4 (ix2 d l) = (blockParams x1 x2 x3 x4 x5 x6 x7 x8).bc (col x0 l) := by
  unfold bcMat
  rw [row_apply, asRow_apply, sumRows_apply]
  refine Finset.sum_congr rfl fun k _ => ?_
  show k0_pay6 x0 x1 x2 x3 x4 (ix2 k l) * k0_pay7 x0 x1 x2 x3 x4 (ix2 k l) = _
  rw [bRows_eq x0 x1 x2 x3 x4 x5 x6 x7 x8, cRows_eq x0 x1 x2 x3 x4 x5 x6 x7 x8]

/-- The skip weights, laid along every column. -/
def dvMat : FVec Ideal S512x2048 .f32 :=
  broadcastTo S512x2048 (shapeCast S512x1 x7 shapeCasts_S512x1_S512x1) broadcasts_S512x1_S512x2048

theorem dvMat_eq (d : Fin 512) (l : Fin 2048) : dvMat x7 (ix2 d l) = x7 (ix2 d (0 : Fin 1)) := by
  unfold dvMat; rw [shapeCast_self]; exact column_apply (by decide) x7 _ d l

/-- A matrix stored as a block with a leading unit axis. -/
theorem addLead_apply (x : FVec Ideal S256x2048 .f32) (c : Fin 256) (l : Fin 2048) :
    shapeCast S1x256x2048 x shapeCasts_S256x2048_S1x256x2048 (ix3 (0 : Fin 1) c l) = x (ix2 c l) :=
  shapeCast_apply x _ (ix3 (0 : Fin 1) c l) (ix2 c l) (by
    rewrite [Shape.rowMajor_val_two, Shape.rowMajor_val_three]
    show c.val * 2048 + l.val = (0 * 256 + c.val) * 2048 + l.val; omega)

/-! ## What the body stores -/

/-- THE STORED BLOCK at (0, c, l) is output channel `c` of the token in column `l`. -/
theorem out_eq (c : Fin 256) (l : Fin 2048) :
    k0_pay1 (k0_pay3 x0 x1) (k0_pay4 x0 x1 x2 x3) (k0_pay6 x0 x1 x2 x3 x4) (k0_pay7 x0 x1 x2 x3 x4)
        (k0_pay8 x0 x1 x2 x3 x4 x5 x6) (k0_pay9 x0 x1 x2 x3 x4 x5 x6) (k0_pay10 x0 x1 x2 x3 x4 x5 x6)
        (k0_pay11 x0 x1 x2 x3 x4 x5 x6) (k0_pay12 (F := Ideal)) x7 x8 (ix3 (0 : Fin 1) c l)
      = (blockParams x1 x2 x3 x4 x5 x6 x7 x8).out (col x0 l) c := by
  unfold k0_pay1
  refine (addLead_apply _ c l).trans ?_
  refine (PlainMatmul.matmul_zero_apply 256 512 2048 none _ _ c l).trans ?_
  refine Finset.sum_congr rfl fun d _ => ?_
  rw [shapeCast_self]
  refine (mul_comm _ _).trans (congrArg (· * x8 (ix2 c d)) ?_)
  show (Scalar.select (Ideal.cmp .one (k0_pay8 x0 x1 x2 x3 x4 x5 x6 (ix2 d l) - Ideal.ofBits .f32 0x00000000#32)
            (k0_pay8 x0 x1 x2 x3 x4 x5 x6 (ix2 d l) - Ideal.ofBits .f32 0x00000000#32))
          (k0_pay8 x0 x1 x2 x3 x4 x5 x6 (ix2 d l) + Ideal.ofBits .f32 0x00000000#32)
          (max (k0_pay8 x0 x1 x2 x3 x4 x5 x6 (ix2 d l)) (Ideal.ofBits .f32 0x00000000#32)
            + Ideal.log1p (Ideal.exp (Ideal.ofBits .f32 0x00000000#32
                - max (k0_pay8 x0 x1 x2 x3 x4 x5 x6 (ix2 d l) - Ideal.ofBits .f32 0x00000000#32)
                    (-(k0_pay8 x0 x1 x2 x3 x4 x5 x6 (ix2 d l) - Ideal.ofBits .f32 0x00000000#32)))))
        * k0_pay4 x0 x1 x2 x3 (ix2 d l) * bcMat x0 x1 x2 x3 x4 (ix2 d l)
        + dvMat x7 (ix2 d l) * k0_pay4 x0 x1 x2 x3 (ix2 d l))
      * (k0_pay3 x0 x1 (ix2 d l) * Ideal.logistic (k0_pay3 x0 x1 (ix2 d l))) = _
  rw [lin_eq x0 x1 x2 x3 x4 x5 x6 x7 x8, act_eq x0 x1 x2 x3 x4 x5 x6 x7 x8, gateIn_eq x0 x1 x2 x3 x4 x5 x6 x7 x8,
    bcMat_eq x0 x1 x2 x3 x4 x5 x6 x7 x8, dvMat_eq]
  exact gated_of_body _ _ _ _ _ _ _ Ideal.ofBits_zero_f32 Ideal.ofBits_zero_f32

end Cert.KerToken

end
-- ==== Proof.KerArray.lean ====
/-
  The kernel's result array.

  The call runs the body on an 8 × 8 grid: point (b, q) takes image `b` and positions q·2048 … q·2048 + 2047 of the
  flattened 128 × 128 image, all 256 channels, and writes the same block of the output; the weights' blocks are the
  whole (transposed, column-shaped) weight arrays at every point. Position `p` of the flattened image is pixel
  (p / 128, p % 128). So what point (b, q) writes back is a block of ONE array, the flattening of `Cert.Token.G`; the
  blocks tile the output, and the reshape after the call un-flattens it.
-/
import proofs.«120211_j14388140441602_2_alg».proof.Proof.Gen.KernelIdeal.Frame
import proofs.«120211_j14388140441602_2_alg».proof.Proof.KerToken
import Idealize.ShloMosaic.Lib.Pipeline.Value
import Idealize.ShloMosaic.Lib.StableHlo.Run

set_option maxRecDepth 16384

noncomputable section

namespace Cert.KerArray

open Cert.KernelIdeal Cert.KernelIdeal.Gen Cert.Token
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Layout operations of the host lines at an entry -/

/-- A transposed matrix (its change of float format is the identity here). -/
theorem transposed_apply {A B : Nat} {φ ψ : FTy} (x : FVec Ideal ⟨2, ![A, B]⟩ φ) (h : (⟨2, ![A, B]⟩ : Shape).Transposes [1, 0] ⟨2, ![B, A]⟩)
    (hb : ψ.bits < φ.bits) (j : Fin B) (k : Fin A) :
    (truncf ψ (transpose ⟨2, ![B, A]⟩ [1, 0] x h) hb : FVec Ideal ⟨2, ![B, A]⟩ ψ) (ix2 j k) = x (ix2 k j) :=
  transpose_apply [1, 0] x h (ix2 j k) (ix2 k j) (fun b => match b with
    | ⟨0, _⟩ => rfl
    | ⟨1, _⟩ => rfl)

/-- A vector viewed as a one-column matrix. -/
theorem asColumn_apply (x : FVec Ideal S512 .f32) (d : Fin 512) :
    shapeCast S512x1 x shapeCasts_S512_S512x1 (ix2 d (0 : Fin 1)) = x (ix1 d) :=
  shapeCast_apply x _ (ix2 d (0 : Fin 1)) (ix1 d) (by
    rewrite [Shape.rowMajor_val_one, Shape.rowMajor_val_two]
    show d.val = d.val * 1 + 0; omega)

/-- The last column of the 512 × 4 filter bank, viewed as a vector and then as a one-column matrix. -/
theorem lastTap_apply (x : FVec Ideal S512x4 .f32) (d : Fin 512) :
    shapeCast S512x1 (shapeCast S512 (extractStridedSlice S512x1 ![0, 3] x slices_S512x4_S512x1_0_3) shapeCasts_S512x1_S512)
      shapeCasts_S512_S512x1 (ix2 d (0 : Fin 1)) = x (ix2 d (3 : Fin 4)) := by
  rw [asColumn_apply]
  refine (shapeCast_apply _ shapeCasts_S512x1_S512 (ix1 d) (ix2 d (0 : Fin 1)) (by
    rewrite [Shape.rowMajor_val_two, Shape.rowMajor_val_one]
    show d.val * 1 + 0 = d.val; omega)).trans ?_
  exact extractStridedSlice_apply _ x _ (ix2 d (0 : Fin 1)) (ix2 d (3 : Fin 4)) (fun a => by
    match a with
    | ⟨0, _⟩ => exact (Nat.zero_add _).symm
    | ⟨1, _⟩ => rfl)

/-! ## The arrays as the call finds them -/

theorem V_main_v0 (c : Dev nD) : (V m c main_v0 : S8x256x16384.Idx → EReal)
    = shapeCast S8x256x16384 (m ((c.tc : Thread nD τ).loc main_arg0)) shapeCasts_S8x256x128x128_S8x256x16384 := by
  show StableHlo.after hostOps0 (fun b => m (c, b)) (Proc.devRef .tc main_v0) = _
  after_results; rfl
theorem V_main_v2 (c : Dev nD) : V m c main_v2
    = (truncf (F := Ideal) .bf16 (transpose S1024x256 [1, 0] (m ((c.tc : Thread nD τ).loc main_arg1)) transposes_S256x1024_S1024x256_1_0) bitsLt_bf16_f32 : FVec Ideal S1024x256 .bf16) := by
  show StableHlo.after hostOps0 (fun b => m (c, b)) (Proc.devRef .tc main_v2) = _
  after_results
theorem V_main_v4 (c : Dev nD) : V m c main_v4
    = (truncf (F := Ideal) .bf16 (transpose S48x512 [1, 0] (m ((c.tc : Thread nD τ).loc main_arg4)) transposes_S512x48_S48x512_1_0) bitsLt_bf16_f32 : FVec Ideal S48x512 .bf16) := by
  show StableHlo.after hostOps0 (fun b => m (c, b)) (Proc.devRef .tc main_v4) = _
  after_results
theorem V_main_v6 (c : Dev nD) : V m c main_v6
    = (truncf (F := Ideal) .bf16 (transpose S512x16 [1, 0] (m ((c.tc : Thread nD τ).loc main_arg5)) transposes_S16x512_S512x16_1_0) bitsLt_bf16_f32 : FVec Ideal S512x16 .bf16) := by
  show StableHlo.after hostOps0 (fun b => m (c, b)) (Proc.devRef .tc main_v6) = _
  after_results
theorem V_main_v8 (c : Dev nD) : V m c main_v8
    = (truncf (F := Ideal) .bf16 (transpose S256x512 [1, 0] (m ((c.tc : Thread nD τ).loc main_arg9)) transposes_S512x256_S256x512_1_0) bitsLt_bf16_f32 : FVec Ideal S256x512 .bf16) := by
  show StableHlo.after hostOps0 (fun b => m (c, b)) (Proc.devRef .tc main_v8) = _
  after_results
theorem V_main_v11 (c : Dev nD) : (V m c main_v11 : S512x1.Idx → EReal)
    = shapeCast S512x1 (shapeCast S512 (extractStridedSlice S512x1 ![0, 3] (m ((c.tc : Thread nD τ).loc main_arg2)) slices_S512x4_S512x1_0_3) shapeCasts_S512x1_S512)
        shapeCasts_S512_S512x1 := by
  show StableHlo.after hostOps0 (fun b => m (c, b)) (Proc.devRef .tc main_v11) = _
  after_results; rfl
theorem V_main_v12 (c : Dev nD) : (V m c main_v12 : S512x1.Idx → EReal) = shapeCast S512x1 (m ((c.tc : Thread nD τ).loc main_arg3)) shapeCasts_S512_S512x1 := by
  show StableHlo.after hostOps0 (fun b => m (c, b)) (Proc.devRef .tc main_v12) = _
  after_results; rfl
theorem V_main_v13 (c : Dev nD) : (V m c main_v13 : S512x1.Idx → EReal) = shapeCast S512x1 (m ((c.tc : Thread nD τ).loc main_arg6)) shapeCasts_S512_S512x1 := by
  show StableHlo.after hostOps0 (fun b => m (c, b)) (Proc.devRef .tc main_v13) = _
  after_results; rfl
theorem V_main_v14 (c : Dev nD) : (V m c main_v14 : S512x1.Idx → EReal) = shapeCast S512x1 (m ((c.tc : Thread nD τ).loc main_arg8)) shapeCasts_S512_S512x1 := by
  show StableHlo.after hostOps0 (fun b => m (c, b)) (Proc.devRef .tc main_v14) = _
  after_results; rfl

/-! ## The windows' blocks -/

/-- Every weight window's block index is zero on both axes, at every point. -/
structure WeightsAtZero (t : Fin cfg0.N) : Prop where
  w1a : win0_1.index t (0 : Fin 2) = 0
  w1b : win0_1.index t (1 : Fin 2) = 0
  w2a : win0_2.index t (0 : Fin 2) = 0
  w2b : win0_2.index t (1 : Fin 2) = 0
  w3a : win0_3.index t (0 : Fin 2) = 0
  w3b : win0_3.index t (1 : Fin 2) = 0
  w4a : win0_4.index t (0 : Fin 2) = 0
  w4b : win0_4.index t (1 : Fin 2) = 0
  w5a : win0_5.index t (0 : Fin 2) = 0
  w5b : win0_5.index t (1 : Fin 2) = 0
  w6a : win0_6.index t (0 : Fin 2) = 0
  w6b : win0_6.index t (1 : Fin 2) = 0
  w7a : win0_7.index t (0 : Fin 2) = 0
  w7b : win0_7.index t (1 : Fin 2) = 0
  w8a : win0_8.index t (0 : Fin 2) = 0
  w8b : win0_8.index t (1 : Fin 2) = 0

/-- The printed index maps over the 64 points: the input image's block index is the output's, both are (b, 0, q) with
    b, q < 8, and the weights stay put. -/
theorem idx_facts : ∀ t : Fin cfg0.N,
    win0_0.index t (0 : Fin 3) = win0_9.index t (0 : Fin 3) ∧ win0_0.index t (1 : Fin 3) = 0
    ∧ win0_0.index t (2 : Fin 3) = win0_9.index t (2 : Fin 3)
    ∧ win0_9.index t (0 : Fin 3) < 8 ∧ win0_9.index t (1 : Fin 3) = 0 ∧ win0_9.index t (2 : Fin 3) < 8
    ∧ WeightsAtZero t := by
  intro t
  refine ⟨rfl, rfl, rfl, ?_, rfl, ?_, ⟨rfl, rfl, rfl, rfl, rfl, rfl, rfl, rfl, rfl, rfl, rfl, rfl, rfl, rfl, rfl, rfl⟩⟩
  · exact (by decide +kernel : ∀ t : Fin grid0.N, win0_9.index t (0 : Fin 3) < 8) t
  · exact (by decide +kernel : ∀ t : Fin grid0.N, win0_9.index t (2 : Fin 3) < 8) t

/-- Every pair (b, q) is some point's block index. -/
theorem idx_onto : ∀ (q0 q2 : Fin 8), ∃ t : Fin cfg0.N, win0_9.index t = ![q0.val, 0, q2.val] :=
  (by decide +kernel : ∀ (q0 q2 : Fin 8), ∃ t : Fin grid0.N, win0_9.index t = ![q0.val, 0, q2.val])

theorem blk_Win (c : Dev nD) (t : Fin cfg0.N) (j : Fin 1024) (k : Fin 256) :
    iblk m c 1 t (ix2 j k) = (m ((c.tc : Thread nD τ).loc main_arg1)) (ix2 k j) := by
  obtain ⟨-, -, -, -, -, -, e⟩ := idx_facts t
  show V m c main_v2 (((cfg0.win 1).blk t).view.emb (ix2 j k)) = _
  have ee : ((cfg0.win 1).blk t).view.emb (ix2 j k) = ix2 j k := funext fun a => Fin.ext (by
    match a with
    | ⟨0, _⟩ => show win0_1.index t (0 : Fin 2) * 1024 + 1 * j.val = j.val; have := e.w1a; omega
    | ⟨1, _⟩ => show win0_1.index t (1 : Fin 2) * 256 + 1 * k.val = k.val; have := e.w1b; omega)
  rw [ee, V_main_v2]
  exact transposed_apply _ transposes_S256x1024_S1024x256_1_0 bitsLt_bf16_f32 j k

theorem blk_Wx (c : Dev nD) (t : Fin cfg0.N) (j : Fin 48) (k : Fin 512) :
    iblk m c 4 t (ix2 j k) = (m ((c.tc : Thread nD τ).loc main_arg4)) (ix2 k j) := by
  obtain ⟨-, -, -, -, -, -, e⟩ := idx_facts t
  show V m c main_v4 (((cfg0.win 4).blk t).view.emb (ix2 j k)) = _
  have ee : ((cfg0.win 4).blk t).view.emb (ix2 j k) = ix2 j k := funext fun a => Fin.ext (by
    match a with
    | ⟨0, _⟩ => show win0_4.index t (0 : Fin 2) * 48 + 1 * j.val = j.val; have := e.w4a; omega
    | ⟨1, _⟩ => show win0_4.index t (1 : Fin 2) * 512 + 1 * k.val = k.val; have := e.w4b; omega)
  rw [ee, V_main_v4]
  exact transposed_apply _ transposes_S512x48_S48x512_1_0 bitsLt_bf16_f32 j k

theorem blk_Wdt (c : Dev nD) (t : Fin cfg0.N) (j : Fin 512) (k : Fin 16) :
    iblk m c 5 t (ix2 j k) = (m ((c.tc : Thread nD τ).loc main_arg5)) (ix2 k j) := by
  obtain ⟨-, -, -, -, -, -, e⟩ := idx_facts t
  show V m c main_v6 (((cfg0.win 5).blk t).view.emb (ix2 j k)) = _
  have ee : ((cfg0.win 5).blk t).view.emb (ix2 j k) = ix2 j k := funext fun a => Fin.ext (by
    match a with
    | ⟨0, _⟩ => show win0_5.index t (0 : Fin 2) * 512 + 1 * j.val = j.val; have := e.w5a; omega
    | ⟨1, _⟩ => show win0_5.index t (1 : Fin 2) * 16 + 1 * k.val = k.val; have := e.w5b; omega)
  rw [ee, V_main_v6]
  exact transposed_apply _ transposes_S16x512_S512x16_1_0 bitsLt_bf16_f32 j k

theorem blk_Wout (c : Dev nD) (t : Fin cfg0.N) (j : Fin 256) (k : Fin 512) :
    iblk m c 8 t (ix2 j k) = (m ((c.tc : Thread nD τ).loc main_arg9)) (ix2 k j) := by
  obtain ⟨-, -, -, -, -, -, e⟩ := idx_facts t
  show V m c main_v8 (((cfg0.win 8).blk t).view.emb (ix2 j k)) = _
  have ee : ((cfg0.win 8).blk t).view.emb (ix2 j k) = ix2 j k := funext fun a => Fin.ext (by
    match a with
    | ⟨0, _⟩ => show win0_8.index t (0 : Fin 2) * 256 + 1 * j.val = j.val; have := e.w8a; omega
    | ⟨1, _⟩ => show win0_8.index t (1 : Fin 2) * 512 + 1 * k.val = k.val; have := e.w8b; omega)
  rw [ee, V_main_v8]
  exact transposed_apply _ transposes_S512x256_S256x512_1_0 bitsLt_bf16_f32 j k

theorem blk_cb (c : Dev nD) (t : Fin cfg0.N) (d : Fin 512) :
    iblk m c 3 t (ix2 d (0 : Fin 1)) = (m ((c.tc : Thread nD τ).loc main_arg3)) (ix1 d) := by
  obtain ⟨-, -, -, -, -, -, e⟩ := idx_facts t
  show V m c main_v12 (((cfg0.win 3).blk t).view.emb (ix2 d (0 : Fin 1))) = _
  have ee : ((cfg0.win 3).blk t).view.emb (ix2 d (0 : Fin 1)) = ix2 d (0 : Fin 1) := funext fun a => Fin.ext (by
    match a with
    | ⟨0, _⟩ => show win0_3.index t (0 : Fin 2) * 512 + 1 * d.val = d.val; have := e.w3a; omega
    | ⟨1, _⟩ => show win0_3.index t (1 : Fin 2) * 1 + 1 * 0 = 0; have := e.w3b; omega)
  rw [ee, V_main_v12]
  exact asColumn_apply _ d

theorem blk_bdt (c : Dev nD) (t : Fin cfg0.N) (d : Fin 512) :
    iblk m c 6 t (ix2 d (0 : Fin 1)) = (m ((c.tc : Thread nD τ).loc main_arg6)) (ix1 d) := by
  obtain ⟨-, -, -, -, -, -, e⟩ := idx_facts t
  show V m c main_v13 (((cfg0.win 6).blk t).view.emb (ix2 d (0 : Fin 1))) = _
  have ee : ((cfg0.win 6).blk t).view.emb (ix2 d (0 : Fin 1)) = ix2 d (0 : Fin 1) := funext fun a => Fin.ext (by
    match a with
    | ⟨0, _⟩ => show win0_6.index t (0 : Fin 2) * 512 + 1 * d.val = d.val; have := e.w6a; omega
    | ⟨1, _⟩ => show win0_6.index t (1 : Fin 2) * 1 + 1 * 0 = 0; have := e.w6b; omega)
  rw [ee, V_main_v13]
  exact asColumn_apply _ d

theorem blk_Dv (c : Dev nD) (t : Fin cfg0.N) (d : Fin 512) :
    iblk m c 7 t (ix2 d (0 : Fin 1)) = (m ((c.tc : Thread nD τ).loc main_arg8)) (ix1 d) := by
  obtain ⟨-, -, -, -, -, -, e⟩ := idx_facts t
  show V m c main_v14 (((cfg0.win 7).blk t).view.emb (ix2 d (0 : Fin 1))) = _
  have ee : ((cfg0.win 7).blk t).view.emb (ix2 d (0 : Fin 1)) = ix2 d (0 : Fin 1) := funext fun a => Fin.ext (by
    match a with
    | ⟨0, _⟩ => show win0_7.index t (0 : Fin 2) * 512 + 1 * d.val = d.val; have := e.w7a; omega
    | ⟨1, _⟩ => show win0_7.index t (1 : Fin 2) * 1 + 1 * 0 = 0; have := e.w7b; omega)
  rw [ee, V_main_v14]
  exact asColumn_apply _ d

theorem blk_cw (c : Dev nD) (t : Fin cfg0.N) (d : Fin 512) :
    iblk m c 2 t (ix2 d (0 : Fin 1)) = (m ((c.tc : Thread nD τ).loc main_arg2)) (ix2 d (3 : Fin 4)) := by
  obtain ⟨-, -, -, -, -, -, e⟩ := idx_facts t
  show V m c main_v11 (((cfg0.win 2).blk t).view.emb (ix2 d (0 : Fin 1))) = _
  have ee : ((cfg0.win 2).blk t).view.emb (ix2 d (0 : Fin 1)) = ix2 d (0 : Fin 1) := funext fun a => Fin.ext (by
    match a with
    | ⟨0, _⟩ => show win0_2.index t (0 : Fin 2) * 512 + 1 * d.val = d.val; have := e.w2a; omega
    | ⟨1, _⟩ => show win0_2.index t (1 : Fin 2) * 1 + 1 * 0 = 0; have := e.w2b; omega)
  rw [ee, V_main_v11]
  exact lastTap_apply _ d

/-- The weights the body finds at any point are the argument arrays' weights. -/
theorem params_blk (c : Dev nD) (t : Fin cfg0.N) : (KerToken.blockParams (iblk m c 1 t) (iblk m c 2 t) (iblk m c 3 t) (iblk m c 4 t) (iblk m c 5 t) (iblk m c 6 t) (iblk m c 7 t) (iblk m c 8 t)) = (params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))) := by
  unfold KerToken.blockParams params
  congr 1
  · funext k j; exact blk_Win m c t j k
  · funext d; exact blk_cw m c t d
  · funext d; exact blk_cb m c t d
  · funext d r; exact blk_Wx m c t r d
  · funext r d; exact blk_Wdt m c t d r
  · funext d; exact blk_bdt m c t d
  · funext d; exact blk_Dv m c t d
  · funext d cc; exact blk_Wout m c t cc d

/-- Row and column of the pixel at position `l` of tile `q` of the flattened image. -/
def rowOf (q : Fin 8) (l : Fin 2048) : Fin 128 := ⟨(q.val * 2048 + l.val) / 128, by have := q.isLt; have := l.isLt; omega⟩
def colOf (q : Fin 8) (l : Fin 2048) : Fin 128 := ⟨(q.val * 2048 + l.val) % 128, by omega⟩

/-- Column `l` of the input block at a point with block index (b, 0, q) is the token at that pixel. -/
theorem col_blk (c : Dev nD) (t : Fin cfg0.N) (b q : Fin 8) (hb : win0_9.index t (0 : Fin 3) = b.val)
    (hq : win0_9.index t (2 : Fin 3) = q.val) (l : Fin 2048) :
    KerToken.col (iblk m c 0 t) l = pixel (m ((c.tc : Thread nD τ).loc main_arg0)) b (rowOf q l) (colOf q l) := by
  funext k
  obtain ⟨e0, e1, e2, -, -, -, -⟩ := idx_facts t
  show V m c main_v0 (((cfg0.win 0).blk t).view.emb (ix3 (0 : Fin 1) k l)) = (m ((c.tc : Thread nD τ).loc main_arg0)) (ix4 b k (rowOf q l) (colOf q l))
  rw [V_main_v0]
  refine shapeCast_apply (s := S8x256x128x128) (t := S8x256x16384) _ _ _ _ ?_
  rewrite [Shape.rowMajor_val_four, Shape.rowMajor_val_three]
  have hk := k.isLt; have hl := l.isLt; have hq' := q.isLt
  show ((b.val * 256 + k.val) * 128 + (q.val * 2048 + l.val) / 128) * 128 + (q.val * 2048 + l.val) % 128
    = ((win0_0.index t (0 : Fin 3) * 1 + 1 * 0) * 256 + (win0_0.index t (1 : Fin 3) * 256 + 1 * k.val)) * 16384
      + (win0_0.index t (2 : Fin 3) * 2048 + 1 * l.val)
  omega

/-! ## What a point writes back, and the array after the call -/

theorem hz3 : (![0, 0, 0] : Fin 3 → Nat) = fun _ => 0 := funext fun a => by fin_cases a <;> rfl
theorem hz2 : (![0, 0] : Fin 2 → Nat) = fun _ => 0 := funext fun a => by fin_cases a <;> rfl

/-- The result with its two image axes flattened into 16384 positions. -/
def Gflat (c : Dev nD) : S8x256x16384.Idx → EReal :=
  shapeCast S8x256x16384 (G (m ((c.tc : Thread nD τ).loc main_arg0)) (params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)))) shapeCasts_S8x256x128x128_S8x256x16384

theorem Gflat_apply (c : Dev nD) (b : Fin 8) (cc : Fin 256) (q : Fin 8) (l : Fin 2048) (p : Fin 16384) (hp : p.val = q.val * 2048 + l.val) :
    Gflat m c (ix3 b cc p) = (params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))).out (pixel (m ((c.tc : Thread nD τ).loc main_arg0)) b (rowOf q l) (colOf q l)) cc := by
  unfold Gflat
  refine (shapeCast_apply _ _ (ix3 b cc p) (ix4 b cc (rowOf q l) (colOf q l)) ?_).trans rfl
  rewrite [Shape.rowMajor_val_four, Shape.rowMajor_val_three]
  have hl := l.isLt; have hq' := q.isLt
  show ((b.val * 256 + cc.val) * 128 + (q.val * 2048 + l.val) / 128) * 128 + (q.val * 2048 + l.val) % 128
    = (b.val * 256 + cc.val) * 16384 + p.val
  omega

/-- WHAT POINT `t` WRITES BACK is block `t` of the flattened result. -/
theorem flushed_eq (c : Dev nD) (t : Fin cfg0.N) :
    (dats m 0 c).flushed 9 t = ((cfg0.win 9).blk t).view.read (Elt Ideal) (Gflat m c) := by
  show (cfg0.win 9).cut (grid0.coords t) ((dats m 0 c).after 9 t) = _
  rw [after0_9]
  unfold out0_9
  rw [View.canon_unit_zero hz3]
  simp only [View.ld_unit_zero (S := S1x256x2048) hz3, View.ld_unit_zero (S := S1024x256) hz2, View.ld_unit_zero (S := S512x1) hz2,
    View.ld_unit_zero (S := S48x512) hz2, View.ld_unit_zero (S := S512x16) hz2, View.ld_unit_zero (S := S256x512) hz2]
  funext y
  obtain ⟨u, cc, l, rfl⟩ : ∃ (u : Fin 1) (cc : Fin 256) (l : Fin 2048), y = ix3 u cc l := ⟨y 0, y 1, y 2, eq_ix3 y⟩
  obtain rfl : u = 0 := Subsingleton.elim _ _
  obtain ⟨-, -, -, f0, f1, f2, -⟩ := idx_facts t
  refine (KerToken.out_eq (iblk m c 0 t) (iblk m c 1 t) (iblk m c 2 t) (iblk m c 3 t) (iblk m c 4 t) (iblk m c 5 t) (iblk m c 6 t)
    (iblk m c 7 t) (iblk m c 8 t) cc l).trans ?_
  rw [params_blk, col_blk m c t ⟨win0_9.index t (0 : Fin 3), f0⟩ ⟨win0_9.index t (2 : Fin 3), f2⟩ rfl rfl l]
  have hl := l.isLt
  have ee : ((cfg0.win 9).blk t).view.emb (ix3 (0 : Fin 1) cc l)
      = ix3 (⟨win0_9.index t (0 : Fin 3), f0⟩ : Fin 8) cc (⟨win0_9.index t (2 : Fin 3) * 2048 + l.val, by omega⟩ : Fin 16384) :=
    funext fun a => Fin.ext (by
      match a with
      | ⟨0, _⟩ => show win0_9.index t (0 : Fin 3) * 1 + 1 * 0 = win0_9.index t (0 : Fin 3); omega
      | ⟨1, _⟩ => show win0_9.index t (1 : Fin 3) * 256 + 1 * cc.val = cc.val; omega
      | ⟨2, _⟩ => show win0_9.index t (2 : Fin 3) * 2048 + 1 * l.val = win0_9.index t (2 : Fin 3) * 2048 + l.val; omega)
  show _ = Gflat m c (((cfg0.win 9).blk t).view.emb (ix3 (0 : Fin 1) cc l))
  rw [ee, Gflat_apply m c _ cc ⟨win0_9.index t (2 : Fin 3), f2⟩ l _ rfl]

/-- An index of the output is in point `t`'s block iff each coordinate is in the block's range on its axis. -/
theorem mem_blk (t : Fin cfg0.N) (i : S8x256x16384.Idx) :
    i ∈ ((cfg0.win 9).blk t).view.set ↔ ∀ a : Fin 3, win0_9.index t a * S1x256x2048.size a ≤ (i a).val
      ∧ (i a).val < win0_9.index t a * S1x256x2048.size a + S1x256x2048.size a := by
  show i ∈ ((View.whole main_v15).slice (win0_9.rect t)).set ↔ _
  rw [View.set_slice_whole, Rect.mem_set_unit]
  exact Iff.rfl

/-- The blocks tile the output: index (b, c, p) is in the block of the point with block index (b, 0, p / 2048). -/
theorem cover (i : S8x256x16384.Idx) : ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 16384 := (i 2).isLt
  obtain ⟨t, ht⟩ := idx_onto ⟨(i 0).val, h0⟩ ⟨(i 2).val / 2048, by omega⟩
  have q0 : win0_9.index t (0 : Fin 3) = (i 0).val := congrFun ht 0
  have q1 : win0_9.index t (1 : Fin 3) = 0 := congrFun ht 1
  have q2 : win0_9.index t (2 : Fin 3) = (i 2).val / 2048 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 2048 ≤ (i 2).val ∧ (i 2).val < win0_9.index t (2 : Fin 3) * 2048 + 2048; omega

/-- THE OUTPUT ARRAY after the call is the flattened result. -/
theorem final (c : Dev nD) : (dats m 0 c).arrAt 9 cfg0.N = Gflat m c :=
  (dats m 0 c).arrAt_eq_of_cover 9 (Gflat m c) (fun t _ => flushed_eq m c t) cover

/-- The reshape after the call un-flattens it: @main's result is `G` of the arguments. -/
theorem tail_eq (c : Dev nD) :
    Pipeline.afterTail₀ cfgs (dats m) 0 (V0 m) [hostOps1] c main_v16 = G (m ((c.tc : Thread nD τ).loc main_arg0)) (params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))) := by
  unfold Pipeline.afterTail₀
  show StableHlo.after hostOps1 _ (Proc.devRef .tc main_v16) = _
  after_results
  rw [(Pipeline.withArrays_arr spec0 launch0.win.arr_inj c _ _ 9).trans (final m c)]
  exact shapeCast_shapeCast _ _ _

/-! ## The run -/

/-- Every weakly fair execution of the kernel program terminates with its result at `G` of the arguments, the
    arguments unchanged. -/
theorem run : θ_run defs (onTc (τ := τ) (main (F := Ideal))) ⟨m, fun _ => 0, ρ⟩ fun r => ∀ c : Dev nD,
      r.2.mem ((c.tc : Thread nD τ).loc main_v16) = G (m ((c.tc : Thread nD τ).loc main_arg0)) (params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KerArray

end
-- ==== Proof.lean ====
/- The proof of `Cert.Claim`: a Pallas kernel for a gated state-space block on sequences of length one, applied at every
   pixel of an 8 × 256 × 128 × 128 image, against its jnp reference.

   Both programs compute, at pixel (b, h, w) and output channel c, the function `Cert.Token.G`: project the pixel's
   256 channels to 1024, pass the first 512 through the last tap of a depthwise convolution and `a ↦ a · σ(a)`, mix
   them into a 16-coordinate step and two 16-vectors B, C, take one scan step from the zero state —
   softplus(step) · act · ⟨B, C⟩ + D · act —, gate by `a · σ(a)` of the other 512, and project to 256 channels.
   The kernel keeps channels on rows and 2048 pixels on columns and multiplies by transposed weights; the reference
   moves channels last and flattens the pixels into rows. On the extended reals, where every operation is exact and a
   change of float format is the identity, the two differ only by the order of the two factors of each product inside
   the contractions, by `0 − |x|` against `−|x|`, by the logistic function as one operation against its quotient, and by
   the reference's `(y + y) · ½`, which is `y` at the infinities too. No finiteness of the inputs is used.

   Proof/Token.lean states `G`; Proof/RefToken.lean reads the reference's generated run as `G`; Proof/KerToken.lean reads
   the kernel body's arithmetic at one token and Proof/KerArray.lean the kernel's result array, over the generated frame
   run; Proof/LibPlainMatmul.lean is a plain matrix product read at an entry. -/
import proofs.«120211_j14388140441602_2_alg».proof.Defs
import proofs.«120211_j14388140441602_2_alg».proof.Proof.Gen.Kernel
import proofs.«120211_j14388140441602_2_alg».proof.Proof.Gen.Kernel.Skeleton
import proofs.«120211_j14388140441602_2_alg».proof.Proof.Gen.Kernel.Launch
import proofs.«120211_j14388140441602_2_alg».proof.Proof.Gen.Kernel.Points
import proofs.«120211_j14388140441602_2_alg».proof.Proof.Gen.Kernel.Frame
import proofs.«120211_j14388140441602_2_alg».proof.Proof.Gen.KernelIdeal
import proofs.«120211_j14388140441602_2_alg».proof.Proof.Gen.KernelIdeal.Skeleton
import proofs.«120211_j14388140441602_2_alg».proof.Proof.Gen.KernelIdeal.Launch
import proofs.«120211_j14388140441602_2_alg».proof.Proof.Gen.KernelIdeal.Points
import proofs.«120211_j14388140441602_2_alg».proof.Proof.Gen.KernelIdeal.Frame
import proofs.«120211_j14388140441602_2_alg».proof.Proof.Gen.ReferenceIdeal
import proofs.«120211_j14388140441602_2_alg».proof.Proof.Gen.ReferenceIdeal.Run
import proofs.«120211_j14388140441602_2_alg».proof.Proof.Gen.ReferenceIdeal.Read
import proofs.«120211_j14388140441602_2_alg».proof.Proof.Gen.Pre_finite_inputs
import proofs.«120211_j14388140441602_2_alg».proof.Proof.Token
import proofs.«120211_j14388140441602_2_alg».proof.Proof.RefToken
import proofs.«120211_j14388140441602_2_alg».proof.Proof.KerToken
import proofs.«120211_j14388140441602_2_alg».proof.Proof.KerArray
import Idealize.ShloMosaic.Adequacy
import Idealize.ShloMosaic.Init

noncomputable section

namespace Cert.Proof

open Idealize.ShloMosaic Idealize.SL.Sem Cert.Token

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments, the kernel's result array and the reference's both end at `G` of
    the arguments: one function, so the results are equal entry by entry. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (params (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    Cert.KerArray.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, -, a8, a9⟩ := hagree c
  rw [(h c).1, Cert.ReferenceIdeal.Read.val_main_v40_eq, Cert.RefToken.result_eq, a0, a1, a2, a3, a4, a5, a6, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
